-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8192x128 .f32) (main_arg1 : FVec F S8192x8192 .f32) (main_arg2 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S128x128 : Shape := ⟨2, ![128, 128]⟩
abbrev S256x4096 : Shape := ⟨2, ![256, 4096]⟩
abbrev S256x128 : Shape := ⟨2, ![256, 128]⟩
abbrev S4096x128 : Shape := ⟨2, ![4096, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S8192x128, .f32⟩
  | .local _ .vmem, ⟨0, _⟩ => ⟨S8192x128, .f32⟩
  | .local _ .vmem, ⟨1, _⟩ => ⟨S128x128, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x128, .f32⟩
  | .local _ .vmem, ⟨7, _⟩ => ⟨S256x128, .f32⟩
  | .local _ .vmem, ⟨8, _⟩ => ⟨S8192x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S8192x128_S8192x128 : S8192x128.ShapeCasts S8192x128
  packedbf16_S8192x128_S8192x128_0_0 : (Rect.unit (s := S8192x128) ![0, 0] S8192x128.size inb_S8192x128_S8192x128_0_0).PackedRows (EltTy.packing .bf16)
  inb_S256x4096_S256x4096_0_0 : ∀ a, (![0, 0] : Fin 2 → Nat) a + S256x4096.size a ≤ S256x4096.size a
  h_S256x4096 : 0 < S256x4096.numel
  inb_S8192x128_S4096x128_0_0 : ∀ a, (![0, 0] : Fin 2 → Nat) a + S4096x128.size a ≤ S8192x128.size a
  h_S4096x128 : 0 < S4096x128.numel
  inb_S8192x128_S4096x128_4096_0 : ∀ a, (![4096, 0] : Fin 2 → Nat) a + S4096x128.size a ≤ S8192x128.size a
  inb_S256x128_S256x128_0_0 : ∀ a, (![0, 0] : Fin 2 → Nat) a + S256x128.size a ≤ S256x128.size a
  h_S256x128 : 0 < S256x128.numel
  dot_S8192x128_S128x128_S8192x128_1_0_0_1_n_n_wf : DotDims.WF S8192x128 S128x128 S8192x128 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x8192.size a
  hwx0_2 : ∀ i : grid0.Coords, EltTy.bits .f32 = 32 ∨ (Rect.block (s := S8192x8192) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x8192.size a
  hwx0_3 : ∀ i : grid0.Coords, EltTy.bits .f32 = 32 ∨ (Rect.block (s := S8192x8192) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S8192x128.size a
  hwx0_4 : ∀ i : grid0.Coords, EltTy.bits .f32 = 32 ∨ (Rect.block (s := S8192x128) S256x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192x128, .f32⟩
  | .hbm, ⟨7, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Common.lean ====
/-
  A graph-convolution layer out = relu(adj · (feat · W)) as one pipelined kernel over 32 row blocks of adj.
  This module fixes the vocabulary the run of the kernel body is stated over: the arrays as the region finds
  them, the block of each window at a grid point, the body's one branch condition (the first grid point, where
  the projection feat · W is computed into the scratch), and the staging and scratch memrefs the body is called on.
-/
import proofs.«116305_g34007551050521_cont_8to1_b_1118_11_alg».proof.Proof.Gen.Kernel.Launch
import proofs.«116305_g34007551050521_cont_8to1_b_1118_11_alg».proof.Proof.Gen.Kernel.Skeleton
import proofs.«116305_g34007551050521_cont_8to1_b_1118_11_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents when the region is entered: @main is the region alone, so they are the launch contents. -/
abbrev V (c : Dev nD) (b : Ref sig .tc) : Buf (Elt F) ((c : Thread nD τ).loc b) := m ((c : Thread nD τ).loc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's branch condition: the grid coordinate is zero. -/
abbrev cond0 (i : grid0.Coords) : Prop :=
  (Scalar.cmpi .ne (Scalar.extui (Scalar.cmpi .eq (BitVec.ofNat 32 (i 0).val) 0#32)) 0#32) = 1#1

/-- It holds exactly at the first grid point. -/
theorem hcond0 : ∀ t : Fin cfg0.N, cond0 (grid0.coords t) ↔ t.val = 0 :=
  (by decide +kernel : ∀ t : Fin grid0.N, cond0 (grid0.coords t) ↔ t.val = 0)

/-- Each window's current staging memref at point `t`, as the pipeline passes it to the body, and its wholeness. -/
abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .f32 := win0_4.stage (cfg0.slots t 4)
abbrev hs4 (t : Fin cfg0.N) : (ms4 t).IsWhole := hstage0_4 ((cfg0.slots t 4).cast nbuf0_4)
/-- The scratch that holds the projection feat · W from the first point on. -/
abbrev scM : Memref sig .tc .vmem S8192x128 .bf16 := Memref.whole cc0_scratch0
/-- The scratch and one staging buffer of the output window as views: contents are stated through them. -/
abbrev VS : View sig .tc .vmem S8192x128 .bf16 := (scM).view
abbrev VO : View sig .tc .vmem S256x128 .f32 := (Memref.whole cc0_stg4_0 : Memref sig .tc .vmem S256x128 .f32).view

/-- The scoped buffers the pipeline does not stage are the scratch alone, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.K.RunA.lean ====
/-
  The kernel body at the first grid point: it loads the node features and the weight matrix, stores their
  product (the projection) over the whole scratch, then loads the two halves of the adjacency row block and the two
  halves of the scratch and stores the rectified sum of the two products over the whole output block.
  The body's triple is stated with the pieces its stores leave as a witness the symbolic run finds.
-/
import proofs.«116305_g34007551050521_cont_8to1_b_1118_11_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is taken: on whole staging memrefs, the four inputs' at their contents, the output's
    and the scratch at anything, it runs to the continuation holding the inputs' as they were and the output's
    buffer and the scratch each with its pieces written. -/
noncomputable def kernelRun_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) :
    Σ' (L4 : List (View.Piece (Elt F) S256x128 .f32)), { LS : List (View.Piece (Elt F) S8192x128 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_block_kernel i arg1 harg1 arg2 harg2 arg3 harg3 arg4 harg4 arg5 harg5 arg6 harg6) K } := by
  refine ⟨?_, ?_, fun E K => ?run⟩
  case run =>
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1
    obtain rfl := harg3.eq_unread hf2; obtain rfl := harg4.eq_unread hf3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H6

end Cert.Kernel.Hand

end
-- ==== Proof.K.RunB.lean ====
/-
  The kernel body at every later grid point: the branch is not taken, so it only loads the two halves of the
  adjacency row block and the two halves of the scratch (which still holds the projection the first point stored)
  and stores the rectified sum of the two products over the whole output block. The features' and the weights'
  staging buffers are not touched.
-/
import proofs.«116305_g34007551050521_cont_8to1_b_1118_11_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is not taken: on whole staging memrefs, the adjacency halves' at their contents, the
    scratch at what the first point left (`xs`), the output's at anything, it runs to the continuation holding those
    as they were and the output's buffer with its pieces written. -/
noncomputable def kernelRun_B (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : ¬cond0 i)
    (x2 : Vec F S256x4096 .f32) (x3 : Vec F S256x4096 .f32) (xs : Vec F S8192x128 .bf16) :
    { L4 : List (View.Piece (Elt F) S256x128 .f32) //
      ∀ (E : Set ℕ) (K : PUnit → sProp 𝕄),
        iprop(owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gcn_block_kernel i arg1 harg1 arg2 harg2 arg3 harg3 arg4 harg4 arg5 harg5 arg6 harg6) K } := by
  refine ⟨?_, fun E K => ?run⟩
  case run =>
    simp only [cc0__gcn_block_kernel_eq_skeleton]; unfold cc0__gcn_block_kernel_skel
    unfold owns
    iintro ⟨⟨%f2, %hf2, H2⟩, ⟨%f3, %hf3, H3⟩, ⟨%d4, %f4, -, H4⟩, ⟨%f6, %hf6, H6⟩, Hk⟩
    obtain rfl := harg3.eq_unread hf2; obtain rfl := harg4.eq_unread hf3; obtain rfl := harg6.eq_unread hf6
    sl_exec (disch := exact hc0)
    sl_step
    iapply Hk
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; isplitr; · ipureintro; exact harg6.read_unread _
    iexact H6

end Cert.Kernel.Hand

end
-- ==== Proof.K.Data.lean ====
/-
  What the two cases of the kernel body leave, and the proof data of the pipeline.
  The scratch is written once, at the first grid point, with the projection of the node features by the weights;
  every later point only reads it. So the region's invariant is: before the first point the scratch at anything,
  after it the scratch at that projection. Each input window's staging buffer holds its block of its array; the
  output window's holds what the case of the point stored. The adjacency array is read through two windows (its left
  and right column halves): each holds half of the array's share.
-/
import proofs.«116305_g34007551050521_cont_8to1_b_1118_11_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's one store into the output block covers it. -/
theorem cover_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) (y : S256x128.Idx) :
    ∃ pc ∈ (kernelRun_A c i arg1 harg1 arg2 harg2 arg3 harg3 arg4 harg4 arg5 harg5 arg6 harg6 hc0 x0 x1 x2 x3).1, y ∈ pc.1.set :=
  View.cover_of_tiledL (kernelRun_A c i arg1 harg1 arg2 harg2 arg3 harg3 arg4 harg4 arg5 harg5 arg6 harg6 hc0 x0 x1 x2 x3).1 S256x128.size (by sl_kernel_rfl) y

/-- The first point's one store into the scratch covers it. -/
theorem scover_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) (y : S8192x128.Idx) :
    ∃ pc ∈ (kernelRun_A c i arg1 harg1 arg2 harg2 arg3 harg3 arg4 harg4 arg5 harg5 arg6 harg6 hc0 x0 x1 x2 x3).2.1, y ∈ pc.1.set :=
  View.cover_of_tiledL (kernelRun_A c i arg1 harg1 arg2 harg2 arg3 harg3 arg4 harg4 arg5 harg5 arg6 harg6 hc0 x0 x1 x2 x3).2.1 S8192x128.size (by sl_kernel_rfl) y

/-- A later point's one store into the output block covers it. -/
theorem cover_B (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : ¬cond0 i)
    (x2 : Vec F S256x4096 .f32) (x3 : Vec F S256x4096 .f32) (xs : Vec F S8192x128 .bf16) (y : S256x128.Idx) :
    ∃ pc ∈ (kernelRun_B c i arg1 harg1 arg2 harg2 arg3 harg3 arg4 harg4 arg5 harg5 arg6 harg6 hc0 x2 x3 xs).1, y ∈ pc.1.set :=
  View.cover_of_tiledL (kernelRun_B c i arg1 harg1 arg2 harg2 arg3 harg3 arg4 harg4 arg5 harg5 arg6 harg6 hc0 x2 x3 xs).1 S256x128.size (by sl_kernel_rfl) y

/-- What the first point leaves in the output's staging buffer. -/
def out_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) : Vec F S256x128 .f32 :=
  VO.read (Elt F) (VO.writes (Elt F) VO.junk (kernelRun_A c i arg1 harg1 arg2 harg2 arg3 harg3 arg4 harg4 arg5 harg5 arg6 harg6 hc0 x0 x1 x2 x3).1)

/-- What the first point leaves in the scratch. -/
def sout_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) : Vec F S8192x128 .bf16 :=
  VS.read (Elt F) (VS.writes (Elt F) VS.junk (kernelRun_A c i arg1 harg1 arg2 harg2 arg3 harg3 arg4 harg4 arg5 harg5 arg6 harg6 hc0 x0 x1 x2 x3).2.1)

/-- What a later point leaves in the output's staging buffer. -/
def out_B (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : ¬cond0 i)
    (x2 : Vec F S256x4096 .f32) (x3 : Vec F S256x4096 .f32) (xs : Vec F S8192x128 .bf16) : Vec F S256x128 .f32 :=
  VO.read (Elt F) (VO.writes (Elt F) VO.junk (kernelRun_B c i arg1 harg1 arg2 harg2 arg3 harg3 arg4 harg4 arg5 harg5 arg6 harg6 hc0 x2 x3 xs).1)

/-! ## Point by point -/

/-- The first grid point. -/
def t0 : Fin cfg0.N := ⟨0, by rw [show cfg0.N = 32 from N_0]; omega⟩

/-- The projection: what the scratch holds from the first point on. -/
def xw (c : Dev nD) : Vec F S8192x128 .bf16 :=
  sout_A c (grid0.coords t0) (ms0 t0) (hs0 t0) (ms1 t0) (hs1 t0) (ms2 t0) (hs2 t0) (ms3 t0) (hs3 t0) (ms4 t0) (hs4 t0) scM (Memref.isWhole_whole _) ((hcond0 t0).mpr rfl) (iblk m c 0 t0) (iblk m c 1 t0) (iblk m c 2 t0) (iblk m c 3 t0)

/-- What the output's staging buffer holds after the body at point `t`. -/
def outAt (c : Dev nD) (t : Fin cfg0.N) : Vec F S256x128 .f32 :=
  if h : t.val = 0 then
    out_A c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t)
  else
    out_B c (grid0.coords t) (ms0 t) (hs0 t) (ms1 t) (hs1 t) (ms2 t) (hs2 t) (ms3 t) (hs3 t) (ms4 t) (hs4 t) scM (Memref.isWhole_whole _) (fun hh => h ((hcond0 t).mp hh)) (iblk m c 2 t) (iblk m c 3 t) (xw m c)

theorem outAt_A (c : Dev nD) (t : Fin cfg0.N) (h : t.val = 0) :
    outAt m c t = out_A c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t) := dif_pos h

theorem outAt_B (c : Dev nD) (t : Fin cfg0.N) (h : ¬t.val = 0) :
    outAt m c t = out_B c (grid0.coords t) (ms0 t) (hs0 t) (ms1 t) (hs1 t) (ms2 t) (hs2 t) (ms3 t) (hs3 t) (ms4 t) (hs4 t) scM (Memref.isWhole_whole _) (fun hh => h ((hcond0 t).mp hh)) (iblk m c 2 t) (iblk m c 3 t) (xw m c) := dif_neg h

/-- The region's invariant before position `n`: before the first point the scratch at anything, afterwards at the projection. -/
def PhiS (c : Dev nD) : ℕ → sProp 𝕄
  | 0 => Pipeline.scopedRest spec0 c
  | _ + 1 => owns (c : Thread nD τ) scM fullShare (xw m c)

theorem PhiS_zero (c : Dev nD) (n : ℕ) (hz : n = 0) : PhiS m c n = Pipeline.scopedRest spec0 c := by subst hz; rfl

theorem PhiS_pos (c : Dev nD) (n : ℕ) (hz : n ≠ 0) : PhiS m c n = owns (c : Thread nD τ) scM fullShare (xw m c) := by
  cases n with
  | zero => exact absurd rfl hz
  | succ n => rfl

/-! ## The pipeline's proof data -/

/-- The arrays as the region finds them; after the body each input's buffer at its block and the output's at
    `outAt`; the invariant `PhiS`; nothing owed; the adjacency array's share dealt in halves to its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Hand

end
-- ==== Proof.K.Body.lean ====
/-
  The body obligation of the pipeline: at every grid point, from the invariant, nothing owed and every window's
  current staging buffer at what the schedule put there, the kernel body runs to the invariant of the next point and
  every buffer at what the proof data say it leaves. Two cases: the first point (the projection is stored into the
  scratch, which held anything), and every later point (the scratch holds the projection and is only read).
-/
import proofs.«116305_g34007551050521_cont_8to1_b_1118_11_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]
theorem leaves4 (c : Dev nD) (t : Fin cfg0.N) : (dats m 0 c).leavesExact 4 t = owns (c : Thread nD τ) (ms4 t) fullShare (outAt m c t) := by
  rw [← after4]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [leaves0, leaves1, leaves2, leaves3, leaves4, Phi_castSucc]
  by_cases h0 : t.val = 0
  · obtain rfl : t = t0 := Fin.ext h0
    rw [PhiS_zero m c _ h0, scopedRest_eq, outAt_A m c t0 h0]
    unfold xw out_A sout_A; (try dsimp only)
    iintro ⟨HS, Ho, ⟨%d0, H0⟩, ⟨%d1, H1⟩, ⟨%d2, H2⟩, ⟨%d3, H3⟩, ⟨%d4, H4⟩⟩
    iapply ((kernelRun_A c (grid0.coords t0) _ _ _ _ _ _ _ _ _ _ _ _ ((hcond0 t0).mpr h0) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scover_A c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_A c _ _ _ _ _ _ _ _ _ _ _ _ _ _ _ _ _ _)
  · rw [PhiS_pos m c _ h0, outAt_B m c t h0]
    unfold out_B; (try dsimp only)
    iintro ⟨HS, Ho, ⟨%d0, H0⟩, ⟨%d1, H1⟩, ⟨%d2, H2⟩, ⟨%d3, H3⟩, ⟨%d4, H4⟩⟩
    iapply ((kernelRun_B c (grid0.coords t) _ _ _ _ _ _ _ _ _ _ _ _ (fun hh => h0 ((hcond0 t).mp hh)) (iblk m c 2 t) (iblk m c 3 t) (xw m c)).2 Set.univ _)
    isplitl [H2]; · iexact H2
    isplitl [H3]; · iexact H3
    isplitl [H4]; · iexists _; iexact H4
    isplitl [HS]; · iexact HS
    iintro ⟨H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The launch. The region is handed the four buffers behind its five windows' arrays, each whole at the full share; the
  adjacency array serves two windows, so its share is split in halves, one per window, and the other arrays go to
  their windows whole. The scratch enters the invariant at anything and leaves it forgotten. The run then ends with the
  output array at what the pipeline's write-backs left and the three argument arrays as they were.
-/
import proofs.«116305_g34007551050521_cont_8to1_b_1118_11_alg».proof.Proof.K.Body
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the five windows' arrays, conjoined one by one. -/
theorem bigSep_arrs {M : Type} [URA M] (Φ : Ref sig .tc → sProp M) :
    bigSep (Finset.univ.image (Pipeline.arrRef spec0)) Φ = iprop(Φ main_arg0 ∗ Φ main_arg2 ∗ Φ main_arg1 ∗ Φ main_v0) :=
  bigSep_eq_bigSepL_of_eq [main_arg0, main_arg2, main_arg1, main_v0] (by decide) (by decide) Φ

/-- The buffers behind the arrays, whole at the full share, make the pipeline's arrays at entry: the adjacency array's
    full share is its left half, for the window on its left column half, and its right half, for the other. -/
theorem hsplit (c : Dev nD) : Pipeline.arrBufs spec0 c (V m c) ⊢ (dats m 0 c).arrays ((dats m 0 c).arrAt · 0) := by
  unfold Dat.arrays Pipeline.arrBufs
  rw [bigSep_W0, bigSep_arrs]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h4 : (cfg0.win 4).arr.view.set = Finset.univ := (arr_whole0 4).set_eq_univ
  rw [h0, h1, h2, h4]
  rw [show (dats m 0 c).share 0 = fullShare from rfl, show (dats m 0 c).share 1 = fullShare from rfl,
    show (dats m 0 c).share 2 = fullShare.left from rfl, show (dats m 0 c).share 3 = fullShare.right from rfl,
    show (dats m 0 c).share 4 = fullShare from rfl]
  iintro ⟨H0, H2, H1, H4⟩
  ihave ⟨H1l, H1r⟩ := (pointsTo_share (PosShare.mem_left_op_right fullShare)).1 $$ H1
  isplitl [H0]; · iexact H0
  isplitl [H2]; · iexact H2
  isplitl [H1l]; · iexact H1l
  isplitl [H1r]; · iexact H1r
  iexact H4

/-- What the launch hands the region is the invariant before the first point: the scratch at anything. -/
theorem hin (c : Dev nD) : iprop(emp ∗ Pipeline.scopedRest spec0 c) ⊢ (dats m 0 c).Φ 0 := by
  rw [show (dats m 0 c).Φ 0 = Pipeline.scopedRest spec0 c from rfl]
  iintro ⟨-, H⟩; iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val from rfl,
    PhiS_pos m c _ (by rw [Fin.val_last]; have : cfg0.N = 32 := N_0; omega), scopedRest_eq]
  iintro H; isplitr; · iempintro
  iexists _; iexact H

/-- The run's post: the output array at what the write-backs left, the argument arrays unchanged. -/
def RunPost (r : PUnit × MemSt nD τ sig (Elt F)) : Prop := ∀ c : Dev nD,
  r.2.mem ((c.tc : Thread nD τ).loc main_v0) = (dats m 0 c).arrAt 4 cfg0.N
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

/-- For any values, from any memory with zero counters: every weakly fair execution of @main terminates, faulting
    nowhere, with the output array at what the proof data compute and the arguments unchanged. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main (fun _ => rfl))
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun s h c => ⟨(h c).1 4,
      ((h c).1 0).trans (((dats m 0 c).arrAt_in 0 rfl _).trans (A_eq m c 0)),
      ((h c).1 2).trans (((dats m 0 c).arrAt_in 2 rfl _).trans (A_eq m c 2)),
      ((h c).1 1).trans (((dats m 0 c).arrAt_in 1 rfl _).trans (A_eq m c 1))⟩)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KI.Common.lean ====
/-
  A graph-convolution layer out = relu(adj · (feat · W)) as one pipelined kernel over 32 row blocks of adj.
  This module fixes the vocabulary the run of the kernel body is stated over: the arrays as the region finds
  them, the block of each window at a grid point, the body's one branch condition (the first grid point, where
  the projection feat · W is computed into the scratch), and the staging and scratch memrefs the body is called on.
-/
import proofs.«116305_g34007551050521_cont_8to1_b_1118_11_alg».proof.Proof.Gen.KernelIdeal.Launch
import proofs.«116305_g34007551050521_cont_8to1_b_1118_11_alg».proof.Proof.Gen.KernelIdeal.Skeleton
import proofs.«116305_g34007551050521_cont_8to1_b_1118_11_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents when the region is entered: @main is the region alone, so they are the launch contents. -/
abbrev V (c : Dev nD) (b : Ref sig .tc) : Buf (Elt F) ((c : Thread nD τ).loc b) := m ((c : Thread nD τ).loc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's branch condition: the grid coordinate is zero. -/
abbrev cond0 (i : grid0.Coords) : Prop :=
  (Scalar.cmpi .ne (Scalar.extui (Scalar.cmpi .eq (BitVec.ofNat 32 (i 0).val) 0#32)) 0#32) = 1#1

/-- It holds exactly at the first grid point. -/
theorem hcond0 : ∀ t : Fin cfg0.N, cond0 (grid0.coords t) ↔ t.val = 0 :=
  (by decide +kernel : ∀ t : Fin grid0.N, cond0 (grid0.coords t) ↔ t.val = 0)

/-- Each window's current staging memref at point `t`, as the pipeline passes it to the body, and its wholeness. -/
abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .f32 := win0_4.stage (cfg0.slots t 4)
abbrev hs4 (t : Fin cfg0.N) : (ms4 t).IsWhole := hstage0_4 ((cfg0.slots t 4).cast nbuf0_4)
/-- The scratch that holds the projection feat · W from the first point on. -/
abbrev scM : Memref sig .tc .vmem S8192x128 .bf16 := Memref.whole cc0_scratch0
/-- The scratch and one staging buffer of the output window as views: contents are stated through them. -/
abbrev VS : View sig .tc .vmem S8192x128 .bf16 := (scM).view
abbrev VO : View sig .tc .vmem S256x128 .f32 := (Memref.whole cc0_stg4_0 : Memref sig .tc .vmem S256x128 .f32).view

/-- The scoped buffers the pipeline does not stage are the scratch alone, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KI.RunA.lean ====
/-
  The kernel body at the first grid point: it loads the node features and the weight matrix, stores their
  product (the projection) over the whole scratch, then loads the two halves of the adjacency row block and the two
  halves of the scratch and stores the rectified sum of the two products over the whole output block.
  The body's triple is stated with the pieces its stores leave as a witness the symbolic run finds.
-/
import proofs.«116305_g34007551050521_cont_8to1_b_1118_11_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is taken: on whole staging memrefs, the four inputs' at their contents, the output's
    and the scratch at anything, it runs to the continuation holding the inputs' as they were and the output's
    buffer and the scratch each with its pieces written. -/
noncomputable def kernelRun_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) :
    Σ' (L4 : List (View.Piece (Elt F) S256x128 .f32)), { LS : List (View.Piece (Elt F) S8192x128 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_block_kernel i arg1 harg1 arg2 harg2 arg3 harg3 arg4 harg4 arg5 harg5 arg6 harg6) K } := by
  refine ⟨?_, ?_, fun E K => ?run⟩
  case run =>
    simp only [cc0__gcn_block_kernel_eq_skeleton]; unfold cc0__gcn_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1
    obtain rfl := harg3.eq_unread hf2; obtain rfl := harg4.eq_unread hf3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H6

end Cert.KernelIdeal.Hand

end
-- ==== Proof.KI.RunB.lean ====
/-
  The kernel body at every later grid point: the branch is not taken, so it only loads the two halves of the
  adjacency row block and the two halves of the scratch (which still holds the projection the first point stored)
  and stores the rectified sum of the two products over the whole output block. The features' and the weights'
  staging buffers are not touched.
-/
import proofs.«116305_g34007551050521_cont_8to1_b_1118_11_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is not taken: on whole staging memrefs, the adjacency halves' at their contents, the
    scratch at what the first point left (`xs`), the output's at anything, it runs to the continuation holding those
    as they were and the output's buffer with its pieces written. -/
noncomputable def kernelRun_B (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : ¬cond0 i)
    (x2 : Vec F S256x4096 .f32) (x3 : Vec F S256x4096 .f32) (xs : Vec F S8192x128 .bf16) :
    { L4 : List (View.Piece (Elt F) S256x128 .f32) //
      ∀ (E : Set ℕ) (K : PUnit → sProp 𝕄),
        iprop(owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gcn_block_kernel i arg1 harg1 arg2 harg2 arg3 harg3 arg4 harg4 arg5 harg5 arg6 harg6) K } := by
  refine ⟨?_, fun E K => ?run⟩
  case run =>
    simp only [cc0__gcn_block_kernel_eq_skeleton]; unfold cc0__gcn_block_kernel_skel
    unfold owns
    iintro ⟨⟨%f2, %hf2, H2⟩, ⟨%f3, %hf3, H3⟩, ⟨%d4, %f4, -, H4⟩, ⟨%f6, %hf6, H6⟩, Hk⟩
    obtain rfl := harg3.eq_unread hf2; obtain rfl := harg4.eq_unread hf3; obtain rfl := harg6.eq_unread hf6
    sl_exec (disch := exact hc0)
    sl_step
    iapply Hk
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; isplitr; · ipureintro; exact harg6.read_unread _
    iexact H6

end Cert.KernelIdeal.Hand

end
-- ==== Proof.KI.Data.lean ====
/-
  What the two cases of the kernel body leave, and the proof data of the pipeline.
  The scratch is written once, at the first grid point, with the projection of the node features by the weights;
  every later point only reads it. So the region's invariant is: before the first point the scratch at anything,
  after it the scratch at that projection. Each input window's staging buffer holds its block of its array; the
  output window's holds what the case of the point stored. The adjacency array is read through two windows (its left
  and right column halves): each holds half of the array's share.
-/
import proofs.«116305_g34007551050521_cont_8to1_b_1118_11_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's one store into the output block covers it. -/
theorem cover_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) (y : S256x128.Idx) :
    ∃ pc ∈ (kernelRun_A c i arg1 harg1 arg2 harg2 arg3 harg3 arg4 harg4 arg5 harg5 arg6 harg6 hc0 x0 x1 x2 x3).1, y ∈ pc.1.set :=
  View.cover_of_tiledL (kernelRun_A c i arg1 harg1 arg2 harg2 arg3 harg3 arg4 harg4 arg5 harg5 arg6 harg6 hc0 x0 x1 x2 x3).1 S256x128.size (by sl_kernel_rfl) y

/-- The first point's one store into the scratch covers it. -/
theorem scover_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) (y : S8192x128.Idx) :
    ∃ pc ∈ (kernelRun_A c i arg1 harg1 arg2 harg2 arg3 harg3 arg4 harg4 arg5 harg5 arg6 harg6 hc0 x0 x1 x2 x3).2.1, y ∈ pc.1.set :=
  View.cover_of_tiledL (kernelRun_A c i arg1 harg1 arg2 harg2 arg3 harg3 arg4 harg4 arg5 harg5 arg6 harg6 hc0 x0 x1 x2 x3).2.1 S8192x128.size (by sl_kernel_rfl) y

/-- A later point's one store into the output block covers it. -/
theorem cover_B (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : ¬cond0 i)
    (x2 : Vec F S256x4096 .f32) (x3 : Vec F S256x4096 .f32) (xs : Vec F S8192x128 .bf16) (y : S256x128.Idx) :
    ∃ pc ∈ (kernelRun_B c i arg1 harg1 arg2 harg2 arg3 harg3 arg4 harg4 arg5 harg5 arg6 harg6 hc0 x2 x3 xs).1, y ∈ pc.1.set :=
  View.cover_of_tiledL (kernelRun_B c i arg1 harg1 arg2 harg2 arg3 harg3 arg4 harg4 arg5 harg5 arg6 harg6 hc0 x2 x3 xs).1 S256x128.size (by sl_kernel_rfl) y

/-- What the first point leaves in the output's staging buffer. -/
def out_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) : Vec F S256x128 .f32 :=
  VO.read (Elt F) (VO.writes (Elt F) VO.junk (kernelRun_A c i arg1 harg1 arg2 harg2 arg3 harg3 arg4 harg4 arg5 harg5 arg6 harg6 hc0 x0 x1 x2 x3).1)

/-- What the first point leaves in the scratch. -/
def sout_A (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) : Vec F S8192x128 .bf16 :=
  VS.read (Elt F) (VS.writes (Elt F) VS.junk (kernelRun_A c i arg1 harg1 arg2 harg2 arg3 harg3 arg4 harg4 arg5 harg5 arg6 harg6 hc0 x0 x1 x2 x3).2.1)

/-- What a later point leaves in the output's staging buffer. -/
def out_B (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : ¬cond0 i)
    (x2 : Vec F S256x4096 .f32) (x3 : Vec F S256x4096 .f32) (xs : Vec F S8192x128 .bf16) : Vec F S256x128 .f32 :=
  VO.read (Elt F) (VO.writes (Elt F) VO.junk (kernelRun_B c i arg1 harg1 arg2 harg2 arg3 harg3 arg4 harg4 arg5 harg5 arg6 harg6 hc0 x2 x3 xs).1)

/-! ## Point by point -/

/-- The first grid point. -/
def t0 : Fin cfg0.N := ⟨0, by rw [show cfg0.N = 32 from N_0]; omega⟩

/-- The projection: what the scratch holds from the first point on. -/
def xw (c : Dev nD) : Vec F S8192x128 .bf16 :=
  sout_A c (grid0.coords t0) (ms0 t0) (hs0 t0) (ms1 t0) (hs1 t0) (ms2 t0) (hs2 t0) (ms3 t0) (hs3 t0) (ms4 t0) (hs4 t0) scM (Memref.isWhole_whole _) ((hcond0 t0).mpr rfl) (iblk m c 0 t0) (iblk m c 1 t0) (iblk m c 2 t0) (iblk m c 3 t0)

/-- What the output's staging buffer holds after the body at point `t`. -/
def outAt (c : Dev nD) (t : Fin cfg0.N) : Vec F S256x128 .f32 :=
  if h : t.val = 0 then
    out_A c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t)
  else
    out_B c (grid0.coords t) (ms0 t) (hs0 t) (ms1 t) (hs1 t) (ms2 t) (hs2 t) (ms3 t) (hs3 t) (ms4 t) (hs4 t) scM (Memref.isWhole_whole _) (fun hh => h ((hcond0 t).mp hh)) (iblk m c 2 t) (iblk m c 3 t) (xw m c)

theorem outAt_A (c : Dev nD) (t : Fin cfg0.N) (h : t.val = 0) :
    outAt m c t = out_A c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t) := dif_pos h

theorem outAt_B (c : Dev nD) (t : Fin cfg0.N) (h : ¬t.val = 0) :
    outAt m c t = out_B c (grid0.coords t) (ms0 t) (hs0 t) (ms1 t) (hs1 t) (ms2 t) (hs2 t) (ms3 t) (hs3 t) (ms4 t) (hs4 t) scM (Memref.isWhole_whole _) (fun hh => h ((hcond0 t).mp hh)) (iblk m c 2 t) (iblk m c 3 t) (xw m c) := dif_neg h

/-- The region's invariant before position `n`: before the first point the scratch at anything, afterwards at the projection. -/
def PhiS (c : Dev nD) : ℕ → sProp 𝕄
  | 0 => Pipeline.scopedRest spec0 c
  | _ + 1 => owns (c : Thread nD τ) scM fullShare (xw m c)

theorem PhiS_zero (c : Dev nD) (n : ℕ) (hz : n = 0) : PhiS m c n = Pipeline.scopedRest spec0 c := by subst hz; rfl

theorem PhiS_pos (c : Dev nD) (n : ℕ) (hz : n ≠ 0) : PhiS m c n = owns (c : Thread nD τ) scM fullShare (xw m c) := by
  cases n with
  | zero => exact absurd rfl hz
  | succ n => rfl

/-! ## The pipeline's proof data -/

/-- The arrays as the region finds them; after the body each input's buffer at its block and the output's at
    `outAt`; the invariant `PhiS`; nothing owed; the adjacency array's share dealt in halves to its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.KI.Body.lean ====
/-
  The body obligation of the pipeline: at every grid point, from the invariant, nothing owed and every window's
  current staging buffer at what the schedule put there, the kernel body runs to the invariant of the next point and
  every buffer at what the proof data say it leaves. Two cases: the first point (the projection is stored into the
  scratch, which held anything), and every later point (the scratch holds the projection and is only read).
-/
import proofs.«116305_g34007551050521_cont_8to1_b_1118_11_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]
theorem leaves4 (c : Dev nD) (t : Fin cfg0.N) : (dats m 0 c).leavesExact 4 t = owns (c : Thread nD τ) (ms4 t) fullShare (outAt m c t) := by
  rw [← after4]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [leaves0, leaves1, leaves2, leaves3, leaves4, Phi_castSucc]
  by_cases h0 : t.val = 0
  · obtain rfl : t = t0 := Fin.ext h0
    rw [PhiS_zero m c _ h0, scopedRest_eq, outAt_A m c t0 h0]
    unfold xw out_A sout_A; (try dsimp only)
    iintro ⟨HS, Ho, ⟨%d0, H0⟩, ⟨%d1, H1⟩, ⟨%d2, H2⟩, ⟨%d3, H3⟩, ⟨%d4, H4⟩⟩
    iapply ((kernelRun_A c (grid0.coords t0) _ _ _ _ _ _ _ _ _ _ _ _ ((hcond0 t0).mpr h0) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scover_A c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_A c _ _ _ _ _ _ _ _ _ _ _ _ _ _ _ _ _ _)
  · rw [PhiS_pos m c _ h0, outAt_B m c t h0]
    unfold out_B; (try dsimp only)
    iintro ⟨HS, Ho, ⟨%d0, H0⟩, ⟨%d1, H1⟩, ⟨%d2, H2⟩, ⟨%d3, H3⟩, ⟨%d4, H4⟩⟩
    iapply ((kernelRun_B c (grid0.coords t) _ _ _ _ _ _ _ _ _ _ _ _ (fun hh => h0 ((hcond0 t).mp hh)) (iblk m c 2 t) (iblk m c 3 t) (xw m c)).2 Set.univ _)
    isplitl [H2]; · iexact H2
    isplitl [H3]; · iexact H3
    isplitl [H4]; · iexists _; iexact H4
    isplitl [HS]; · iexact HS
    iintro ⟨H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The launch. The region is handed the four buffers behind its five windows' arrays, each whole at the full share; the
  adjacency array serves two windows, so its share is split in halves, one per window, and the other arrays go to
  their windows whole. The scratch enters the invariant at anything and leaves it forgotten. The run then ends with the
  output array at what the pipeline's write-backs left and the three argument arrays as they were.
-/
import proofs.«116305_g34007551050521_cont_8to1_b_1118_11_alg».proof.Proof.KI.Body
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the five windows' arrays, conjoined one by one. -/
theorem bigSep_arrs {M : Type} [URA M] (Φ : Ref sig .tc → sProp M) :
    bigSep (Finset.univ.image (Pipeline.arrRef spec0)) Φ = iprop(Φ main_arg0 ∗ Φ main_arg2 ∗ Φ main_arg1 ∗ Φ main_v0) :=
  bigSep_eq_bigSepL_of_eq [main_arg0, main_arg2, main_arg1, main_v0] (by decide) (by decide) Φ

/-- The buffers behind the arrays, whole at the full share, make the pipeline's arrays at entry: the adjacency array's
    full share is its left half, for the window on its left column half, and its right half, for the other. -/
theorem hsplit (c : Dev nD) : Pipeline.arrBufs spec0 c (V m c) ⊢ (dats m 0 c).arrays ((dats m 0 c).arrAt · 0) := by
  unfold Dat.arrays Pipeline.arrBufs
  rw [bigSep_W0, bigSep_arrs]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h4 : (cfg0.win 4).arr.view.set = Finset.univ := (arr_whole0 4).set_eq_univ
  rw [h0, h1, h2, h4]
  rw [show (dats m 0 c).share 0 = fullShare from rfl, show (dats m 0 c).share 1 = fullShare from rfl,
    show (dats m 0 c).share 2 = fullShare.left from rfl, show (dats m 0 c).share 3 = fullShare.right from rfl,
    show (dats m 0 c).share 4 = fullShare from rfl]
  iintro ⟨H0, H2, H1, H4⟩
  ihave ⟨H1l, H1r⟩ := (pointsTo_share (PosShare.mem_left_op_right fullShare)).1 $$ H1
  isplitl [H0]; · iexact H0
  isplitl [H2]; · iexact H2
  isplitl [H1l]; · iexact H1l
  isplitl [H1r]; · iexact H1r
  iexact H4

/-- What the launch hands the region is the invariant before the first point: the scratch at anything. -/
theorem hin (c : Dev nD) : iprop(emp ∗ Pipeline.scopedRest spec0 c) ⊢ (dats m 0 c).Φ 0 := by
  rw [show (dats m 0 c).Φ 0 = Pipeline.scopedRest spec0 c from rfl]
  iintro ⟨-, H⟩; iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val from rfl,
    PhiS_pos m c _ (by rw [Fin.val_last]; have : cfg0.N = 32 := N_0; omega), scopedRest_eq]
  iintro H; isplitr; · iempintro
  iexists _; iexact H

/-- The run's post: the output array at what the write-backs left, the argument arrays unchanged. -/
def RunPost (r : PUnit × MemSt nD τ sig (Elt F)) : Prop := ∀ c : Dev nD,
  r.2.mem ((c.tc : Thread nD τ).loc main_v0) = (dats m 0 c).arrAt 4 cfg0.N
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

/-- For any values, from any memory with zero counters: every weakly fair execution of @main terminates, faulting
    nowhere, with the output array at what the proof data compute and the arguments unchanged. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main (fun _ => rfl))
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun s h c => ⟨(h c).1 4,
      ((h c).1 0).trans (((dats m 0 c).arrAt_in 0 rfl _).trans (A_eq m c 0)),
      ((h c).1 2).trans (((dats m 0 c).arrAt_in 2 rfl _).trans (A_eq m c 2)),
      ((h c).1 1).trans (((dats m 0 c).arrAt_in 1 rfl _).trans (A_eq m c 1))⟩)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.KI.Cover.lean ====
/-
  From blocks to the array. The output window's block at grid point t is rows 256·t … 256·t + 255 of the output
  array (all 128 columns), every point writes its block back, and the 32 blocks tile the 8192 rows: row r lies in the
  block of point r / 256. So if what each point leaves in the block is, entry by entry, one whole-array function of
  the arguments read at (256·t + p, j), the array ends holding that function.
-/
import proofs.«116305_g34007551050521_cont_8to1_b_1118_11_alg».proof.Proof.KI.Data
import proofs.«116305_g34007551050521_cont_8to1_b_1118_11_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2)

variable (m : (ℓ : Loc nD τ sig) → Buf (Elt Ideal) ℓ)

/-- The reference's value of the argument arrays as the region finds them. -/
abbrev Gref (c : Dev nD) : S8192x128.Idx → Elt Ideal .f32 :=
  Cert.ReferenceIdeal.Read.val_main_v2 (F := Ideal) (V m c main_arg0) (V m c main_arg1) (V m c main_arg2)

/-- The output window's block index at point t is (t, 0): decided over the grid. -/
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- What point t writes back is block t of the reference's value, once every entry of what the body left is. -/
theorem flushed4_eq (c : Dev nD)
    (hentry : ∀ (t : Fin cfg0.N) (p : Fin 256) (j : Fin 128), outAt (F := Ideal) m c t (ix2 p j)
      = Gref m c (ix2 (⟨256 * t.val + p.val, by have := t.isLt; have : cfg0.N = 32 := N_0; omega⟩ : Fin 8192) j))
    (t : Fin cfg0.N) :
    (dats (F := Ideal) m 0 c).flushed 4 t = ((cfg0.win 4).blk t).view.read (Elt Ideal) (Gref m c) := by
  show (cfg0.win 4).cut (grid0.coords t) ((dats (F := Ideal) m 0 c).after 4 t) = _
  rw [after4]
  obtain ⟨e0, e1⟩ := idx4 t
  funext y
  obtain ⟨p, j, rfl⟩ : ∃ (p : Fin 256) (j : Fin 128), y = ix2 p j := ⟨y 0, y 1, eq_ix2 y⟩
  show outAt (F := Ideal) m c t (ix2 p j) = Gref m c (((cfg0.win 4).blk t).view.emb (ix2 p j))
  rw [hentry t p j]
  refine congrArg (Gref m c) ?_
  funext a; apply Fin.ext
  match a with
  | ⟨0, _⟩ => show 256 * t.val + p.val = win0_4.index t (0 : Fin 2) * 256 + 1 * p.val; omega
  | ⟨1, _⟩ => show j.val = win0_4.index t (1 : Fin 2) * 128 + 1 * j.val; omega

/-- An index of the output array is in point t's block iff each coordinate is in the block's range on its axis. -/
theorem mem_blk4 (t : Fin cfg0.N) (i : S8192x128.Idx) :
    i ∈ ((cfg0.win 4).blk t).view.set ↔ ∀ a : Fin 2, win0_4.index t a * S256x128.size a ≤ (i a).val ∧ (i a).val < win0_4.index t a * S256x128.size a + S256x128.size a := by
  show i ∈ ((View.whole main_v0).slice (win0_4.rect t)).set ↔ _
  rw [View.set_slice_whole, Rect.mem_set_unit]
  exact Iff.rfl

/-- Every index of the output array is in the block of some point that writes back: row r in that of point r / 256. -/
theorem cover4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 32 := N_0
  refine ⟨⟨(i 0).val / 256, by omega⟩, flush0_4 _, ?_⟩
  rw [mem_blk4]
  obtain ⟨e0, e1⟩ := idx4 ⟨(i 0).val / 256, by omega⟩
  intro a
  match a with
  | ⟨0, _⟩ =>
    show win0_4.index ⟨(i 0).val / 256, _⟩ (0 : Fin 2) * 256 ≤ (i 0).val ∧ (i 0).val < win0_4.index ⟨(i 0).val / 256, _⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, _⟩ (1 : Fin 2) * 128 ≤ (i 1).val ∧ (i 1).val < win0_4.index ⟨(i 0).val / 256, _⟩ (1 : Fin 2) * 128 + 128
    rw [e1]; omega

/-- The output array after the run is the reference's value of the arguments, once every entry of every block is. -/
theorem final_of_entry (c : Dev nD)
    (hentry : ∀ (t : Fin cfg0.N) (p : Fin 256) (j : Fin 128), outAt (F := Ideal) m c t (ix2 p j)
      = Gref m c (ix2 (⟨256 * t.val + p.val, by have := t.isLt; have : cfg0.N = 32 := N_0; omega⟩ : Fin 8192) j)) :
    (dats (F := Ideal) m 0 c).arrAt 4 cfg0.N = Gref m c :=
  (dats (F := Ideal) m 0 c).arrAt_eq_of_cover 4 (Gref m c) (fun t _ => flushed4_eq m c hentry t) cover4

end Cert.KernelIdeal.Hand

end
-- ==== Proof.BlockValue.lean ====
import proofs.«116305_g34007551050521_cont_8to1_b_1118_11_alg».proof.Proof.Gen.KernelIdeal.Skeleton
import proofs.«116305_g34007551050521_cont_8to1_b_1118_11_alg».proof.Proof.Gen.ReferenceIdeal.Read
import Idealize.ShloMosaic.Lib.ValueIdx
import Idealize.ShloMosaic.Lib.Pipeline.Value
import Idealize.ShloMosaic.PureOps.Ideal.Laws

/-
  One entry of an output block of the layer  out = max(adj · (feat · w), 0),  read on both sides.

  The kernel first forms the projection  xw = feat · w  (8192 × 128), whose entry (k, j) is
  ∑ d < 128, feat[k, d] · w[d, j].  At grid point t it then writes the 256 × 128 block whose entry (p, j) is
      max( ∑ k < 4096, adjL[p, k] · xw[k, j]  +  ∑ k < 4096, adjR[p, k] · xw[4096 + k, j],  0 ),
  where adjL[p, k] = adj[256 t + p, k] and adjR[p, k] = adj[256 t + p, 4096 + k] are the left and right halves of
  row 256 t + p of adj.  So the entry depends on row 256 t + p of adj (all 8192 columns of it, in two halves), on
  column j of w, and on every row of feat.

  The reference's entry (r, j) is  max( ∑ k < 8192, adj[r, k] · (∑ d < 128, feat[k, d] · w[d, j]),  0 ).

  At the ideal values a change of format and a shape cast to the same shape are the identity, and a matrix product
  accumulated into zero is the plain sum over the contracted axis.  The one law joining the two sides is that a sum
  over 8192 = 4096 + 4096 terms is the sum over its first half plus the sum over its second half; it holds in any
  additive commutative monoid, so nothing about the summands (finiteness in particular) is needed.  The zero under
  the maximum is the same word on both sides and is never evaluated.
-/

noncomputable section

open scoped BigOperators

namespace Cert.KernelIdeal.BlockValue

open Idealize.ShloMosaic Idealize.ShloMosaic.ValueIdx

/-! ## The two matrix products of the kernel at an entry -/

/-- Projection product, left operand's row coordinate: the output's row. -/
theorem lhsP_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- Projection product, left operand's column coordinate: the contracted index. -/
theorem lhsP_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- Projection product, right operand's row coordinate: the contracted index. -/
theorem rhsP_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- Projection product, right operand's column coordinate: the output's column. -/
theorem rhsP_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The product of an [8192,128] array with a [128,128] one, accumulated into zero, at row `k` and column `j`:
    the sum over the shared axis of the products of the entries. -/
theorem matmul_proj_apply (a : FVec Ideal S8192x128 .f32) (b : FVec Ideal S128x128 .f32) (k : Fin 8192) (j : Fin 128) :
    matmul dot_S8192x128_S128x128_S8192x128_1_0_0_1_n_n none a b (constant (F := Ideal) S8192x128 .f32 0x00000000#32) (ix2 k j)
      = ∑ d : Fin 128, a (ix2 k d) * b (ix2 d j) := by
  refine (Ideal.matmul_constant_zero_apply dot_S8192x128_S128x128_S8192x128_1_0_0_1_n_n none a b (ix2 k j)).trans ?_
  rw [← Equiv.sum_comp (contrEquiv1 dot_S8192x128_S128x128_S8192x128_1_0_0_1_n_n 128 rfl rfl).symm]
  refine Finset.sum_congr rfl fun d _ => ?_
  have hd := contrEquiv1_symm_val dot_S8192x128_S128x128_S8192x128_1_0_0_1_n_n 128 rfl rfl d
  have el : dot_S8192x128_S128x128_S8192x128_1_0_0_1_n_n.lhsIdx (ix2 k j) ((contrEquiv1 dot_S8192x128_S128x128_S8192x128_1_0_0_1_n_n 128 rfl rfl).symm d) = ix2 k d := funext fun a => Fin.ext (by
    match a with
    | ⟨0, _⟩ => exact lhsP_0 _ _
    | ⟨1, _⟩ => exact (lhsP_1 _ _).trans hd)
  have er : dot_S8192x128_S128x128_S8192x128_1_0_0_1_n_n.rhsIdx (ix2 k j) ((contrEquiv1 dot_S8192x128_S128x128_S8192x128_1_0_0_1_n_n 128 rfl rfl).symm d) = ix2 d j := funext fun a => Fin.ext (by
    match a with
    | ⟨0, _⟩ => exact (rhsP_0 _ _).trans hd
    | ⟨1, _⟩ => exact rhsP_1 _ _)
  rw [el, er]

/-- Half-row product, left operand's row coordinate: the output's row. -/
theorem lhsB_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
/-- Half-row product, left operand's column coordinate: the contracted index. -/
theorem lhsB_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
/-- Half-row product, right operand's row coordinate: the contracted index. -/
theorem rhsB_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
/-- Half-row product, right operand's column coordinate: the output's column. -/
theorem rhsB_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The product of a [256,4096] array with a [4096,128] one, accumulated into zero, at row `p` and column `j`. -/
theorem matmul_half_apply (a : FVec Ideal S256x4096 .bf16) (b : FVec Ideal S4096x128 .bf16) (p : Fin 256) (j : Fin 128) :
    matmul dot_S256x4096_S4096x128_S256x128_1_0_0_1_n_n none a b (constant (F := Ideal) S256x128 .f32 0x00000000#32) (ix2 p j)
      = ∑ k : Fin 4096, a (ix2 p k) * b (ix2 k j) := by
  refine (Ideal.matmul_constant_zero_apply dot_S256x4096_S4096x128_S256x128_1_0_0_1_n_n none a b (ix2 p j)).trans ?_
  rw [← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 p j) ((contrEquiv1 dot_S256x4096_S4096x128_S256x128_1_0_0_1_n_n 4096 rfl rfl).symm k) = ix2 p k := funext fun a => Fin.ext (by
    match a with
    | ⟨0, _⟩ => exact lhsB_0 _ _
    | ⟨1, _⟩ => exact (lhsB_1 _ _).trans hk)
  have er : dot_S256x4096_S4096x128_S256x128_1_0_0_1_n_n.rhsIdx (ix2 p j) ((contrEquiv1 dot_S256x4096_S4096x128_S256x128_1_0_0_1_n_n 4096 rfl rfl).symm k) = ix2 k j := funext fun a => Fin.ext (by
    match a with
    | ⟨0, _⟩ => exact (rhsB_0 _ _).trans hk
    | ⟨1, _⟩ => exact rhsB_1 _ _)
  rw [el, er]

/-! ## The two payloads at an entry -/

/-- The projected features at row `k`, column `j`: the row of `feat` against the column of `w`. -/
theorem pay1_apply (feat : Vec Ideal S8192x128 .f32) (w : Vec Ideal S128x128 .f32) (k : Fin 8192) (j : Fin 128) :
    Gen.k0_pay1 (F := Ideal) feat w (ix2 k j) = ∑ d : Fin 128, feat (ix2 k d) * w (ix2 d j) := by
  unfold Gen.k0_pay1
  rw [shapeCast_self]
  exact matmul_proj_apply feat w k j

/-- A block's entry: the left half-row against the first 4096 projected rows plus the right half-row against the
    last 4096, under the maximum with the zero word. -/
theorem pay2_apply (x2 x3 : Vec Ideal S256x4096 .f32) (lo hi : Vec Ideal S4096x128 .bf16) (p : Fin 256) (j : Fin 128) :
    Gen.k0_pay2 (F := Ideal) x2 lo x3 hi (ix2 p j)
      = max ((∑ k : Fin 4096, x2 (ix2 p k) * lo (ix2 k j)) + ∑ k : Fin 4096, x3 (ix2 p k) * hi (ix2 k j))
          (Ideal.ofBits .f32 0x00000000#32) := by
  unfold Gen.k0_pay2
  rw [maximumf_apply, addf_apply, broadcast_apply]
  exact congrArg₂ max (congrArg₂ (· + ·) (matmul_half_apply _ lo p j) (matmul_half_apply _ hi p j)) rfl

/-! ## The reference at an entry -/

/-- The reference's entry at row `r`, column `j`: the whole row of `adj` against the projected column, under the
    maximum with the same zero word. -/
theorem ref_apply (feat : Vec Ideal S8192x128 .f32) (adj : Vec Ideal S8192x8192 .f32) (w : Vec Ideal S128x128 .f32)
    (r : Fin 8192) (j : Fin 128) :
    Cert.ReferenceIdeal.Read.val_main_v2 (F := Ideal) feat adj w (ix2 r j)
      = max (∑ k : Fin 8192, adj (ix2 r k) * ∑ d : Fin 128, feat (ix2 k d) * w (ix2 d j))
          (Ideal.ofBits .f32 0x00000000#32) := by
  rw [Cert.ReferenceIdeal.Read.val_main_v2_apply, Cert.ReferenceIdeal.Read.val_main_v1_apply,
    Cert.ReferenceIdeal.Read.val_main_call0_v0_apply, Cert.ReferenceIdeal.Read.val_main_call0_cst_apply]
  refine congrArg₂ max (Finset.sum_congr rfl fun k _ => ?_) rfl
  have e1 : Cert.ReferenceIdeal.Read.lidx_main_v1 (ix2 r j) k = ix2 r k :=
    funext fun a => Fin.ext (by match a with | ⟨0, _⟩ => rfl | ⟨1, _⟩ => rfl)
  have e2 : Cert.ReferenceIdeal.Read.ridx_main_v1 (ix2 r j) k = ix2 k j :=
    funext fun a => Fin.ext (by match a with | ⟨0, _⟩ => rfl | ⟨1, _⟩ => rfl)
  rw [e1, e2, Cert.ReferenceIdeal.Read.val_main_v0_apply]
  refine congrArg _ (Finset.sum_congr rfl fun d _ => ?_)
  have e3 : Cert.ReferenceIdeal.Read.lidx_main_v0 (ix2 k j) d = ix2 k d :=
    funext fun a => Fin.ext (by match a with | ⟨0, _⟩ => rfl | ⟨1, _⟩ => rfl)
  have e4 : Cert.ReferenceIdeal.Read.ridx_main_v0 (ix2 k j) d = ix2 d j :=
    funext fun a => Fin.ext (by match a with | ⟨0, _⟩ => rfl | ⟨1, _⟩ => rfl)
  rw [e3, e4]

/-! ## The law that joins the two sides -/

/-- A sum over 8192 = 4096 + 4096 terms is the sum of its first 4096 terms plus the sum of its last 4096. In an additive
    commutative monoid: nothing about the terms is used. -/
theorem sum_halves {M : Type*} [AddCommMonoid M] (f : Fin 8192 → M) :
    ∑ k : Fin 8192, f k
      = (∑ k : Fin 4096, f ⟨k.val, by omega⟩) + ∑ k : Fin 4096, f ⟨4096 + k.val, by omega⟩ :=
  Fin.sum_univ_add (a := 4096) (b := 4096) f

/-! ## A block's entry is the reference's -/

/-- Entry (p, j) of the block written at grid point `t`, computed from the two halves of row 256 t + p of `adj`
    (`h2`, `h3`) and the two halves of the projection (`hlo`, `hhi`), is the reference's entry (256 t + p, j):
    both are the maximum of the same zero with a sum over the 8192 columns of that row, the kernel's split at 4096. -/
theorem block_eq
    (feat : Vec Ideal S8192x128 .f32) (adj : Vec Ideal S8192x8192 .f32) (w : Vec Ideal S128x128 .f32)
    (x2 x3 : Vec Ideal S256x4096 .f32) (lo hi : Vec Ideal S4096x128 .bf16) (t : Fin 32)
    (h2 : ∀ (p : Fin 256) (k : Fin 4096), x2 (ValueIdx.ix2 p k) = adj (ValueIdx.ix2 (⟨256 * t.val + p.val, by omega⟩ : Fin 8192) (⟨k.val, by omega⟩ : Fin 8192)))
    (h3 : ∀ (p : Fin 256) (k : Fin 4096), x3 (ValueIdx.ix2 p k) = adj (ValueIdx.ix2 (⟨256 * t.val + p.val, by omega⟩ : Fin 8192) (⟨4096 + k.val, by omega⟩ : Fin 8192)))
    (hlo : ∀ (k : Fin 4096) (j : Fin 128), lo (ValueIdx.ix2 k j) = Cert.KernelIdeal.Gen.k0_pay1 (F := Ideal) feat w (ValueIdx.ix2 (⟨k.val, by omega⟩ : Fin 8192) j))
    (hhi : ∀ (k : Fin 4096) (j : Fin 128), hi (ValueIdx.ix2 k j) = Cert.KernelIdeal.Gen.k0_pay1 (F := Ideal) feat w (ValueIdx.ix2 (⟨4096 + k.val, by omega⟩ : Fin 8192) j))
    (p : Fin 256) (j : Fin 128) :
    Cert.KernelIdeal.Gen.k0_pay2 (F := Ideal) x2 lo x3 hi (ValueIdx.ix2 p j)
      = Cert.ReferenceIdeal.Read.val_main_v2 (F := Ideal) feat adj w (ValueIdx.ix2 (⟨256 * t.val + p.val, by omega⟩ : Fin 8192) j) := by
  rw [pay2_apply, ref_apply, sum_halves]
  refine congrArg₂ max (congrArg₂ (· + ·) (Finset.sum_congr rfl fun k _ => ?_) (Finset.sum_congr rfl fun k _ => ?_)) rfl
  · rw [h2 p k, hlo k j, pay1_apply]
  · rw [h3 p k, hhi k j, pay1_apply]

end Cert.KernelIdeal.BlockValue

end
-- ==== Proof.KI.Entry.lean ====
/-
  One entry of the output block the kernel body leaves at a grid point, against the reference.

  At the first point the body stores the projection feat · W over the whole scratch and then reads its two halves
  (rows 0 … 4095 and 4096 … 8191) back; at every later point it reads the two halves of the scratch, which still
  holds that projection. In both cases the output block is the block payload of the two adjacency windows (the left
  and right column halves of rows 256 t … 256 t + 255) and those two halves. Each window's block is read off its
  array at block index × block size + the coordinate inside the block, so the two adjacency windows read
  adj[256 t + p, k] and adj[256 t + p, 4096 + k], and the features' and weights' windows read the whole arrays.
  With these, the block payload's entry (p, j) is the reference's entry (256 t + p, j): the row sum over 8192
  columns split at column 4096.
-/
import proofs.«116305_g34007551050521_cont_8to1_b_1118_11_alg».proof.Proof.KI.Data
import proofs.«116305_g34007551050521_cont_8to1_b_1118_11_alg».proof.Proof.BlockValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each case of the body leaves, as the payloads of its loaded blocks -/

theorem hz : (![0, 0] : Fin 2 → Nat) = fun _ => 0 := funext fun a => by fin_cases a <;> rfl

/-- The first 4096 rows of an [8192,128] array. -/
abbrev loHalf (X : Vec F S8192x128 .bf16) : Vec F S4096x128 .bf16 :=
  View.ld (Val := Elt F) (S := S8192x128) (e' := .bf16) X (Rect.unit ![0, 0] S4096x128.size inb_S8192x128_S4096x128_0_0)
/-- Its last 4096 rows. -/
abbrev hiHalf (X : Vec F S8192x128 .bf16) : Vec F S4096x128 .bf16 :=
  View.ld (Val := Elt F) (S := S8192x128) (e' := .bf16) X (Rect.unit ![4096, 0] S4096x128.size inb_S8192x128_S4096x128_4096_0)

/-- At the first point the scratch ends holding the projection of the loaded features by the loaded weights. -/
theorem sout_A_eq (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) :
    sout_A c i arg1 harg1 arg2 harg2 arg3 harg3 arg4 harg4 arg5 harg5 arg6 harg6 hc0 x0 x1 x2 x3 = Gen.k0_pay1 x0 x1 := by
  unfold sout_A
  rw [View.read_writes_eq_canon _ _ _ (scover_A c i arg1 harg1 arg2 harg2 arg3 harg3 arg4 harg4 arg5 harg5 arg6 harg6 hc0 x0 x1 x2 x3)]
  unfold kernelRun_A
  dsimp only
  sl_unfold_words
  rw [View.canon_unit_zero hz]
  simp only [View.readAt_eq_ld, harg1.read_unread, harg2.read_unread, View.ld_unit_zero (S := S8192x128) hz, View.ld_unit_zero (S := S128x128) hz]

/-- At the first point the output block ends holding the block payload of the two adjacency halves and the two
    halves of the projection just stored. -/
theorem out_A_eq (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : cond0 i)
    (x0 : Vec F S8192x128 .f32) (x1 : Vec F S128x128 .f32) (x2 : Vec F S256x4096 .f32) (x3 : Vec F S256x4096 .f32) :
    out_A c i arg1 harg1 arg2 harg2 arg3 harg3 arg4 harg4 arg5 harg5 arg6 harg6 hc0 x0 x1 x2 x3 = Gen.k0_pay2 x2 (loHalf (Gen.k0_pay1 x0 x1)) x3 (hiHalf (Gen.k0_pay1 x0 x1)) := by
  unfold out_A
  rw [View.read_writes_eq_canon _ _ _ (cover_A c i arg1 harg1 arg2 harg2 arg3 harg3 arg4 harg4 arg5 harg5 arg6 harg6 hc0 x0 x1 x2 x3)]
  unfold kernelRun_A
  dsimp only
  sl_unfold_words
  rw [View.canon_unit_zero hz]
  simp only [View.readCov_eq_canon', View.canon_unit_zero (S := S8192x128) hz, View.readAt_eq_ld, harg1.read_unread, harg2.read_unread, harg3.read_unread, harg4.read_unread, View.ld_unit_zero (S := S256x4096) hz, View.ld_unit_zero (S := S8192x128) hz, View.ld_unit_zero (S := S128x128) hz]
  rfl

/-- At a later point the output block ends holding the block payload of the two adjacency halves and the two
    halves of what the scratch holds. -/
theorem out_B_eq (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x128 .f32) (harg5 : arg5.IsWhole) (arg6 : Memref sig .tc .vmem S8192x128 .bf16) (harg6 : arg6.IsWhole) (hc0 : ¬cond0 i)
    (x2 : Vec F S256x4096 .f32) (x3 : Vec F S256x4096 .f32) (xs : Vec F S8192x128 .bf16) :
    out_B c i arg1 harg1 arg2 harg2 arg3 harg3 arg4 harg4 arg5 harg5 arg6 harg6 hc0 x2 x3 xs = Gen.k0_pay2 x2 (loHalf xs) x3 (hiHalf xs) := by
  unfold out_B
  rw [View.read_writes_eq_canon _ _ _ (cover_B c i arg1 harg1 arg2 harg2 arg3 harg3 arg4 harg4 arg5 harg5 arg6 harg6 hc0 x2 x3 xs)]
  unfold kernelRun_B
  dsimp only
  sl_unfold_words
  rw [View.canon_unit_zero hz]
  simp only [View.readAt_eq_ld, harg3.read_unread, harg4.read_unread, harg6.read_unread, View.ld_unit_zero (S := S256x4096) hz]

/-! ## The two halves of the scratch at an entry -/

open Idealize.ShloMosaic.ValueIdx

/-- Row `k` of the first half is row `k` of the array. -/
theorem loHalf_apply (X : Vec F S8192x128 .bf16) (k : Fin 4096) (j : Fin 128) :
    loHalf X (ix2 k j) = X (ix2 (⟨k.val, by omega⟩ : Fin 8192) j) :=
  congrArg X (funext fun a => Fin.ext (by
    match a with
    | ⟨0, _⟩ => show 0 + 1 * k.val = k.val; omega
    | ⟨1, _⟩ => show 0 + 1 * j.val = j.val; omega))

/-- Row `k` of the second half is row `4096 + k` of the array. -/
theorem hiHalf_apply (X : Vec F S8192x128 .bf16) (k : Fin 4096) (j : Fin 128) :
    hiHalf X (ix2 k j) = X (ix2 (⟨4096 + k.val, by omega⟩ : Fin 8192) j) :=
  congrArg X (funext fun a => Fin.ext (by
    match a with
    | ⟨0, _⟩ => show 4096 + 1 * k.val = 4096 + k.val; omega
    | ⟨1, _⟩ => show 0 + 1 * j.val = j.val; omega))

/-- The block payload over the two halves of the projection is the reference's entry: the statement about values
    alone, over the adjacency halves as any two arrays that read the adjacency rows 256 t … 256 t + 255. -/
theorem entry_eq (feat : Vec Ideal S8192x128 .f32) (adj : Vec Ideal S8192x8192 .f32) (w : Vec Ideal S128x128 .f32)
    (x2 x3 : Vec Ideal S256x4096 .f32) (X : Vec Ideal S8192x128 .bf16) (t : Fin 32)
    (h2 : ∀ (p : Fin 256) (k : Fin 4096), x2 (ix2 p k) = adj (ix2 (⟨256 * t.val + p.val, by omega⟩ : Fin 8192) (⟨k.val, by omega⟩ : Fin 8192)))
    (h3 : ∀ (p : Fin 256) (k : Fin 4096), x3 (ix2 p k) = adj (ix2 (⟨256 * t.val + p.val, by omega⟩ : Fin 8192) (⟨4096 + k.val, by omega⟩ : Fin 8192)))
    (hX : X = Gen.k0_pay1 (F := Ideal) feat w) (p : Fin 256) (j : Fin 128) :
    Gen.k0_pay2 (F := Ideal) x2 (loHalf X) x3 (hiHalf X) (ix2 p j)
      = Cert.ReferenceIdeal.Read.val_main_v2 (F := Ideal) feat adj w (ix2 (⟨256 * t.val + p.val, by omega⟩ : Fin 8192) j) :=
  Cert.KernelIdeal.BlockValue.block_eq feat adj w x2 x3 (loHalf X) (hiHalf X) t h2 h3
    (fun k j => by rw [loHalf_apply, hX]) (fun k j => by rw [hiHalf_apply, hX]) p j

/-! ## Each window's block at an entry -/

variable (m : (ℓ : Loc nD τ sig) → Buf (Elt F) ℓ)

/-- The block index of each input window at a grid point: the features' and the weights' windows stay on their one
    block; the two adjacency windows are on row block `t`, column halves 0 and 1. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 1 :=
  (by decide +kernel : ∀ t : Fin grid0.N, _)

/-- The features' block is the whole array. -/
theorem iblk0_eq (c : Dev nD) (t : Fin cfg0.N) : (iblk m c 0 t : Vec F S8192x128 .f32) = V m c main_arg0 := by
  obtain ⟨e0, e1, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 8192 + 1 * (y 0).val = (y 0).val; omega
  | ⟨1, _⟩ => show win0_0.index t (1 : Fin 2) * 128 + 1 * (y 1).val = (y 1).val; omega

/-- The weights' block is the whole array. -/
theorem iblk1_eq (c : Dev nD) (t : Fin cfg0.N) : (iblk m c 1 t : Vec F S128x128 .f32) = V m c main_arg2 := by
  obtain ⟨-, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The left adjacency window at point `t`: rows 256 t …, columns 0 … 4095. -/
theorem iblk2_apply (c : Dev nD) (t : Fin cfg0.N) (ht : t.val < 32) (p : Fin 256) (k : Fin 4096) :
    (iblk m c 2 t : Vec F S256x4096 .f32) (ix2 p k)
      = (V m c main_arg1 : Vec F S8192x8192 .f32) (ix2 (⟨256 * t.val + p.val, by omega⟩ : Fin 8192) (⟨k.val, by omega⟩ : Fin 8192)) := by
  obtain ⟨-, -, -, -, e0, e1, -⟩ := idx_facts t
  show V m c main_arg1 (((cfg0.win 2).blk t).view.emb (ix2 p k)) = _
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 4096 + 1 * k.val = k.val; omega

/-- The right adjacency window at point `t`: rows 256 t …, columns 4096 … 8191. -/
theorem iblk3_apply (c : Dev nD) (t : Fin cfg0.N) (ht : t.val < 32) (p : Fin 256) (k : Fin 4096) :
    (iblk m c 3 t : Vec F S256x4096 .f32) (ix2 p k)
      = (V m c main_arg1 : Vec F S8192x8192 .f32) (ix2 (⟨256 * t.val + p.val, by omega⟩ : Fin 8192) (⟨4096 + k.val, by omega⟩ : Fin 8192)) := by
  obtain ⟨-, -, -, -, -, -, e0, e1⟩ := idx_facts t
  show V m c main_arg1 (((cfg0.win 3).blk t).view.emb (ix2 p k)) = _
  refine congrArg _ (funext fun a => Fin.ext ?_)
  match a with
  | ⟨0, _⟩ => show win0_3.index t (0 : Fin 2) * 256 + 1 * p.val = 256 * t.val + p.val; omega
  | ⟨1, _⟩ => show win0_3.index t (1 : Fin 2) * 4096 + 1 * k.val = 4096 + k.val; omega

/-- From the first point on the scratch holds the projection of the whole feature array by the weights. -/
theorem xw_eq (c : Dev nD) : xw m c = Gen.k0_pay1 (V m c main_arg0) (V m c main_arg2) := by
  unfold xw
  rw [sout_A_eq, iblk0_eq, iblk1_eq]

/-! ## The output block at an entry -/

/-- Entry (p, j) of what the output's staging buffer holds after the body at point `t` is the reference's entry
    (256 t + p, j): at the first point the body stores the projection and reads its two halves back, at a later
    point it reads the two halves of the scratch, which holds the same projection; in both cases the block payload
    over the two halves of adjacency rows 256 t … 256 t + 255 is the reference's row sum split at column 4096. -/
theorem outAt_entry (m : (ℓ : Loc nD τ sig) → Buf (Elt Ideal) ℓ) (c : Dev nD) (t : Fin cfg0.N) (p : Fin 256) (j : Fin 128) :
    outAt (F := Ideal) m c t (ValueIdx.ix2 p j)
      = Cert.ReferenceIdeal.Read.val_main_v2 (F := Ideal) (V m c main_arg0) (V m c main_arg1) (V m c main_arg2)
          (ValueIdx.ix2 (⟨256 * t.val + p.val, by have := t.isLt; have : cfg0.N = 32 := N_0; omega⟩ : Fin 8192) j) := by
  have ht : t.val < 32 := by have := t.isLt; have : cfg0.N = 32 := N_0; omega
  by_cases h : t.val = 0
  · rw [outAt_A m c t h, out_A_eq]
    exact entry_eq (V m c main_arg0) (V m c main_arg1) (V m c main_arg2) (iblk m c 2 t) (iblk m c 3 t)
      (Gen.k0_pay1 (iblk m c 0 t) (iblk m c 1 t)) ⟨t.val, ht⟩ (iblk2_apply m c t ht) (iblk3_apply m c t ht)
      (by rw [iblk0_eq, iblk1_eq]) p j
  · rw [outAt_B m c t h, out_B_eq]
    exact entry_eq (V m c main_arg0) (V m c main_arg1) (V m c main_arg2) (iblk m c 2 t) (iblk m c 3 t)
      (xw m c) ⟨t.val, ht⟩ (iblk2_apply m c t ht) (iblk3_apply m c t ht) (xw_eq m c) p j

end Cert.KernelIdeal.Hand

end
-- ==== Proof.KI.Final.lean ====
/-
  The output array after the run is the reference's value of the argument arrays: every entry of every block the
  body leaves is that value's entry at the block's place (the per-entry fact), and the blocks tile the array.
-/
import proofs.«116305_g34007551050521_cont_8to1_b_1118_11_alg».proof.Proof.KI.Cover
import proofs.«116305_g34007551050521_cont_8to1_b_1118_11_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem final_out (m : (ℓ : Loc nD τ sig) → Buf (Elt Ideal) ℓ) (c : Dev nD) :
    (dats (F := Ideal) m 0 c).arrAt 4 cfg0.N
      = Cert.ReferenceIdeal.Read.val_main_v2 (F := Ideal) (V m c main_arg0) (V m c main_arg1) (V m c main_arg2) :=
  final_of_entry m c (fun t p j => outAt_entry m c t p j)

end Cert.KernelIdeal.Hand

end
-- ==== Proof.Claims.lean ====
/-
  The five claims of the certificate.
  The kernel computes relu(adj · (feat · W)) block of rows by block of rows, the product with the adjacency row block
  split at the middle column into two products that are added; the reference computes the same with one product. On
  the extended reals a sum over 8192 terms is the sum of its two halves of 4096, with no condition on the terms, so the two
  programs' results are one function of the arguments and the finiteness of the inputs is never used.
  Frames: the word-level kernel's and the idealized kernel's are the launch of the pipeline (Proof/K, Proof/KI: one argument,
  read at either instance); the reference's is its run with the result dropped. The idealization rewrote nothing, so
  the kernel is its own idealization.
-/
import proofs.«116305_g34007551050521_cont_8to1_b_1118_11_alg».proof.Defs
import proofs.«116305_g34007551050521_cont_8to1_b_1118_11_alg».proof.Proof.K.Run
import proofs.«116305_g34007551050521_cont_8to1_b_1118_11_alg».proof.Proof.KI.Run
import proofs.«116305_g34007551050521_cont_8to1_b_1118_11_alg».proof.Proof.KI.Final
import proofs.«116305_g34007551050521_cont_8to1_b_1118_11_alg».proof.Proof.Gen.ReferenceIdeal.Read
import proofs.«116305_g34007551050521_cont_8to1_b_1118_11_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the reference's value of the argument arrays: the kernel's
    by the value of its output array after the run, the reference's by its run read back, the arguments agreeing. -/
theorem algebraic : Cert.algebraic_KernelIdeal_ReferenceIdeal := by
  intro m ρ m' ρ' _ hagree
  refine ⟨fun c => Cert.ReferenceIdeal.Read.val_main_v2 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.final_out m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    rfl

end Cert.Proof.Claims

end
-- ==== Proof.lean ====
/-
  The proof of the certificate's claim: the witnesses of the programs' stated facts, then the three frames, the
  idealization's preservation and the equality of the two idealized programs' results (Proof/Claims.lean).
-/
import proofs.«116305_g34007551050521_cont_8to1_b_1118_11_alg».proof.Defs
import proofs.«116305_g34007551050521_cont_8to1_b_1118_11_alg».proof.Proof.Claims
import proofs.«116305_g34007551050521_cont_8to1_b_1118_11_alg».proof.Proof.Gen.Kernel
import proofs.«116305_g34007551050521_cont_8to1_b_1118_11_alg».proof.Proof.Gen.Kernel.Skeleton
import proofs.«116305_g34007551050521_cont_8to1_b_1118_11_alg».proof.Proof.Gen.Kernel.Launch
import proofs.«116305_g34007551050521_cont_8to1_b_1118_11_alg».proof.Proof.Gen.Kernel.Points
import proofs.«116305_g34007551050521_cont_8to1_b_1118_11_alg».proof.Proof.Gen.KernelIdeal
import proofs.«116305_g34007551050521_cont_8to1_b_1118_11_alg».proof.Proof.Gen.KernelIdeal.Skeleton
import proofs.«116305_g34007551050521_cont_8to1_b_1118_11_alg».proof.Proof.Gen.KernelIdeal.Launch
import proofs.«116305_g34007551050521_cont_8to1_b_1118_11_alg».proof.Proof.Gen.KernelIdeal.Points
import proofs.«116305_g34007551050521_cont_8to1_b_1118_11_alg».proof.Proof.Gen.ReferenceIdeal
import proofs.«116305_g34007551050521_cont_8to1_b_1118_11_alg».proof.Proof.Gen.ReferenceIdeal.Read
import proofs.«116305_g34007551050521_cont_8to1_b_1118_11_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
